-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x259 : Shape := ⟨3, ![16, 1024, 259]⟩
abbrev S16x1024x3 : Shape := ⟨3, ![16, 1024, 3]⟩
abbrev S_ : Shape := ⟨0, ![]⟩

class Facts : Prop where
  bcast_S_S16x1024x259 : S_.BroadcastsInDim S16x1024x259 (![] : Fin 0 → Fin S16x1024x259.rank)
  reducesTo_S16x1024x259_S_d0_1_2 : S16x1024x259.ReducesTo [0, 1, 2] S_
  h_S_ : 0 < S_.numel
  bcast_S_S16x1024x3 : S_.BroadcastsInDim S16x1024x3 (![] : Fin 0 → Fin S16x1024x3.rank)
  reducesTo_S16x1024x3_S_d0_1_2 : S16x1024x3.ReducesTo [0, 1, 2] S_

variable [Facts]

def fn {F : FTy → Type} [FloatOps F] (main_arg0 : FVec F S16x1024x259 .f32) (main_arg1 : FVec F S16x1024x3 .f32) : IVec S_ 1 :=
  let main_v0 : FVec F S16x1024x259 .f32 := Host.absf main_arg0
  let main_cst : FVec F S_ .f32 := constant S_ .f32 0x7F800000#32
  let main_v1 : FVec F S16x1024x259 .f32 := broadcastInDim S16x1024x259 ![] bcast_S_S16x1024x259 main_cst
  let main_v2 : IVec S16x1024x259 1 := cmpf .olt main_v0 main_v1
  let main_c : IVec S_ 1 := constantI S_ 1 1#1
  let main_v3 : IVec S_ 1 := (fun x v => Host.reduce IntOp.andi x v reducesTo_S16x1024x259_S_d0_1_2 h_S_) main_v2 main_c
  let main_v4 : FVec F S16x1024x3 .f32 := Host.absf main_arg1
  let main_cst_0 : FVec F S_ .f32 := constant S_ .f32 0x7F800000#32
  let main_v5 : FVec F S16x1024x3 .f32 := broadcastInDim S16x1024x3 ![] bcast_S_S16x1024x3 main_cst_0
  let main_v6 : IVec S16x1024x3 1 := cmpf .olt main_v4 main_v5
  let main_c_1 : IVec S_ 1 := constantI S_ 1 1#1
  let main_v7 : IVec S_ 1 := (fun x v => Host.reduce IntOp.andi x v reducesTo_S16x1024x3_S_d0_1_2 h_S_) main_v6 main_c_1
  let main_v8 : IVec S_ 1 := andi main_v3 main_v7
  main_v8
-- ==== Kernel.lean ====
abbrev S16x1024x259 : Shape := ⟨3, ![16, 1024, 259]⟩
abbrev S16x1024x3 : Shape := ⟨3, ![16, 1024, 3]⟩
abbrev S1x1024x259 : Shape := ⟨3, ![1, 1024, 259]⟩
abbrev S1x1024x3 : Shape := ⟨3, ![1, 1024, 3]⟩
abbrev S1024x259 : Shape := ⟨2, ![1024, 259]⟩
abbrev S1024x128 : Shape := ⟨2, ![1024, 128]⟩
abbrev S1024x1024 : Shape := ⟨2, ![1024, 1024]⟩
abbrev S1024x3 : Shape := ⟨2, ![1024, 3]⟩
abbrev S1024x1 : Shape := ⟨2, ![1024, 1]⟩
abbrev S1x1024 : Shape := ⟨2, ![1, 1024]⟩
abbrev S1024 : Shape := ⟨1, ![1024]⟩
abbrev S1x1024x1 : Shape := ⟨3, ![1, 1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S16x1024x259, .f32⟩
  | .hbm, ⟨1, _⟩ => ⟨S16x1024x3, .f32⟩
  | .hbm, ⟨2, _⟩ => ⟨S16x1024x3, .f32⟩
  | .local _ .vmem, ⟨0, _⟩ => ⟨S1x1024x259, .f32⟩
  | .local _ .vmem, ⟨1, _⟩ => ⟨S1x1024x259, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x3, .f32⟩
  | .local _ .vmem, ⟨5, _⟩ => ⟨S1x1024x3, .f32⟩
  | _, _ => ⟨S16x1024x259, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x259 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x259_S1x1024x259_0_0_0 : ∀ a, (![0, 0, 0] : Fin 3 → Nat) a + S1x1024x259.size a ≤ S1x1024x259.size a
  h_S1x1024x259 : 0 < S1x1024x259.numel
  shapeCasts_S1x1024x259_S1024x259 : S1x1024x259.ShapeCasts S1024x259
  slices_S1024x259_o0_0_S1024x128 : S1024x259.Slices ![0, 0] S1024x128
  bitsLt_bf16_f32 : FTy.bits .bf16 < FTy.bits .f32
  slices_S1024x259_o0_128_S1024x128 : S1024x259.Slices ![0, 128] S1024x128
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  inb_S1x1024x3_S1x1024x1_0_0_0 : ∀ a, (![0, 0, 0] : Fin 3 → Nat) a + S1x1024x1.size a ≤ S1x1024x3.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x3_S1x1024x1_0_0_1 : ∀ a, (![0, 0, 1] : Fin 3 → Nat) a + S1x1024x1.size a ≤ S1x1024x3.size a
  inb_S1x1024x3_S1x1024x1_0_0_2 : ∀ a, (![0, 0, 2] : Fin 3 → Nat) a + S1x1024x1.size a ≤ S1x1024x3.size a
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x259.size a ≤ S16x1024x259.size a
  hwx0_0 : ∀ i : grid0.Coords, EltTy.bits .f32 = 32 ∨ (Rect.block (s := S16x1024x259) S1x1024x259.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x1024x3.size a
  hwx0_1 : ∀ i : grid0.Coords, EltTy.bits .f32 = 32 ∨ (Rect.block (s := S16x1024x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x3.size a ≤ S16x1024x3.size a
  hwx0_2 : ∀ i : grid0.Coords, EltTy.bits .f32 = 32 ∨ (Rect.block (s := S16x1024x3) S1x1024x3.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x259.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x259 : Shape := ⟨3, ![16, 1024, 259]⟩
abbrev S16x1024x3 : Shape := ⟨3, ![16, 1024, 3]⟩
abbrev S16x1024x128 : Shape := ⟨3, ![16, 1024, 128]⟩
abbrev S16x1024x1024 : Shape := ⟨3, ![16, 1024, 1024]⟩
abbrev S_ : Shape := ⟨0, ![]⟩
abbrev S16x1024x1x3 : Shape := ⟨4, ![16, 1024, 1, 3]⟩
abbrev S16x1x1024x3 : Shape := ⟨4, ![16, 1, 1024, 3]⟩
abbrev S16x1024x1024x3 : Shape := ⟨4, ![16, 1024, 1024, 3]⟩
abbrev S16x1024x1024x1 : Shape := ⟨4, ![16, 1024, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x1024x259, .f32⟩
  | .hbm, ⟨1, _⟩ => ⟨S16x1024x3, .f32⟩
  | .hbm, ⟨2, _⟩ => ⟨S16x1024x128, .f32⟩
  | .hbm, ⟨3, _⟩ => ⟨S16x1024x128, .f32⟩
  | .hbm, ⟨4, _⟩ => ⟨S16x1024x1024, .f32⟩
  | .hbm, ⟨5, _⟩ => ⟨S_, .f32⟩
  | .hbm, ⟨6, _⟩ => ⟨S16x1024x1024, .f32⟩
  | .hbm, ⟨7, _⟩ => ⟨S16x1024x1024, .f32⟩
  | .hbm, ⟨8, _⟩ => ⟨S16x1024x1x3, .f32⟩
  | .hbm, ⟨9, _⟩ => ⟨S16x1x1024x3, .f32⟩
  | .hbm, ⟨10, _⟩ => ⟨S16x1024x1024x3, .f32⟩
  | .hbm, ⟨11, _⟩ => ⟨S16x1024x1024x3, .f32⟩
  | .hbm, ⟨12, _⟩ => ⟨S16x1024x1024x3, .f32⟩
  | .hbm, ⟨13, _⟩ => ⟨S16x1024x1024x3, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S_, .f32⟩
  | .hbm, ⟨18, _⟩ => ⟨S16x1024x1024, .f32⟩
  | .hbm, ⟨19, _⟩ => ⟨S16x1024x1024, .f32⟩
  | .hbm, ⟨20, _⟩ => ⟨S16x1024x1024x1, .f32⟩
  | .hbm, ⟨21, _⟩ => ⟨S16x1024x1024x3, .f32⟩
  | .hbm, ⟨22, _⟩ => ⟨S16x1024x1024x3, .f32⟩
  | .hbm, ⟨23, _⟩ => ⟨S16x1024x1024x1, .f32⟩
  | .hbm, ⟨24, _⟩ => ⟨S16x1024x1024x3, .f32⟩
  | .hbm, ⟨25, _⟩ => ⟨S16x1024x1024x3, .f32⟩
  | .hbm, ⟨26, _⟩ => ⟨S_, .f32⟩
  | .hbm, ⟨27, _⟩ => ⟨S16x1024x3, .f32⟩
  | .hbm, ⟨28, _⟩ => ⟨S16x1024x3, .f32⟩
  | .hbm, ⟨29, _⟩ => ⟨S_, .f32⟩
  | .hbm, ⟨30, _⟩ => ⟨S16x1024x3, .f32⟩
  | .hbm, ⟨31, _⟩ => ⟨S16x1024x3, .f32⟩
  | _, _ => ⟨S16x1024x259, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  slices_S16x1024x259_S16x1024x128_0_0_0 : S16x1024x259.Slices ![0, 0, 0] S16x1024x128
  slices_S16x1024x259_S16x1024x128_0_0_128 : S16x1024x259.Slices ![0, 0, 128] S16x1024x128
  bcast_S_S16x1024x1024 : S_.BroadcastsInDim S16x1024x1024 (![] : Fin 0 → Fin S16x1024x1024.rank)
  bcast_S16x1024x3_S16x1024x1x3_0_1_3 : S16x1024x3.BroadcastsInDim S16x1024x1x3 (![0, 1, 3] : Fin 3 → Fin S16x1024x1x3.rank)
  bcast_S16x1024x3_S16x1x1024x3_0_2_3 : S16x1024x3.BroadcastsInDim S16x1x1024x3 (![0, 2, 3] : Fin 3 → Fin S16x1x1024x3.rank)
  bcast_S16x1024x1x3_S16x1024x1024x3_0_1_2_3 : S16x1024x1x3.BroadcastsInDim S16x1024x1024x3 (![0, 1, 2, 3] : Fin 4 → Fin S16x1024x1024x3.rank)
  bcast_S16x1x1024x3_S16x1024x1024x3_0_1_2_3 : S16x1x1024x3.BroadcastsInDim S16x1024x1024x3 (![0, 1, 2, 3] : Fin 4 → Fin S16x1024x1024x3.rank)
  reducesTo_S16x1024x1024x3_S16x1024x1024_d3 : S16x1024x1024x3.ReducesTo [3] S16x1024x1024
  h_S_ : 0 < S_.numel
  bcast_S16x1024x1024_S16x1024x1024x1_0_1_2 : S16x1024x1024.BroadcastsInDim S16x1024x1024x1 (![0, 1, 2] : Fin 3 → Fin S16x1024x1024x1.rank)
  bcast_S16x1024x1024x1_S16x1024x1024x3_0_1_2_3 : S16x1024x1024x1.BroadcastsInDim S16x1024x1024x3 (![0, 1, 2, 3] : Fin 4 → Fin S16x1024x1024x3.rank)
  reducesTo_S16x1024x1024x3_S16x1024x3_d2 : S16x1024x1024x3.ReducesTo [2] S16x1024x3
  bcast_S_S16x1024x3 : S_.BroadcastsInDim S16x1024x3 (![] : Fin 0 → Fin S16x1024x3.rank)
  dot_S16x1024x128_S16x1024x128_S16x1024x1024_2_2_1_1_0_0_wf : DotDims.WF S16x1024x128 S16x1024x128 S16x1024x1024 [2] [2] [1] [1] [0] [0]

variable [Facts₀]

def dot_S16x1024x128_S16x1024x128_S16x1024x1024_2_2_1_1_0_0 : DotDims S16x1024x128 S16x1024x128 S16x1024x1024 where
  lhsContracting := [2]
  rhsContracting := [2]
  lhsNonContracting := [1]
  rhsNonContracting := [1]
  lhsBatch := [0]
  rhsBatch := [0]
  wf := dot_S16x1024x128_S16x1024x128_S16x1024x1024_2_2_1_1_0_0_wf

class Facts : Prop extends Facts₀ where

variable [Facts]
-- ==== Proof.Spec.lean ====
/-
  The function both programs compute, stated once over rows of extended reals, and the law that joins the two
  arrangements of it.

  For one batch entry let `k n`, `v m` be rows of 128 numbers and `p n` a point of three coordinates. Write
    rel n m  = (∑ e, k n e · v m e) · s                      (a scaled inner product),
    dist n m = sqrt ((p n 0 − p m 0)² + (p n 1 − p m 1)² + (p n 2 − p m 2)²) + ε,
    core n d = a · tanh (∑ m, (p n d − p m d) · (rel n m / dist n m)).
  The other arrangement divides the displacement first and multiplies by `rel` afterwards:
    coreRef n d = a · tanh (0 + ∑ m, ((p n d − p m d) / dist n m) · rel n m).
  On the extended reals `x / y` is `x · y⁻¹` whenever `y ≠ 0`, and multiplication is commutative and associative
  there, so the two summands agree as soon as `dist n m ≠ 0`. That holds for EVERY extended-real input: a square
  `x · x` is never negative (also at ±∞), a sum of such is not, its square root is not, and ε > 0 is added.
-/
import Idealize.ShloMosaic.PureOps.Ideal
import Idealize.ShloMosaic.PureOps.Ideal.Laws
import Idealize.ShloMosaic.Lib.ValueIdx

noncomputable section

open scoped BigOperators

namespace Cert.Pairwise

open Idealize.ShloMosaic

/-- The scale on the inner product: the single-precision number nearest 1/√128, as both programs spell it. -/
abbrev cScale : EReal := Ideal.ofBits .f32 0x3DB504F3#32
/-- The ε added to the distance: the single-precision number nearest 10⁻⁸. -/
abbrev cEps : EReal := Ideal.ofBits .f32 0x322BCC77#32
/-- The final scale: the single-precision number nearest 1/100. -/
abbrev cAct : EReal := Ideal.ofBits .f32 0x3C23D70A#32

/-- ε is the positive real 11258999 · 2⁻⁵⁰. -/
theorem cEps_eq : cEps = ((11258999 * (2 : ℝ) ^ (-50 : Int) : ℝ) : EReal) := by
  show Ideal.ofBits .f32 0x322BCC77#32 = _
  simp [Ideal.ofBits, Ideal.ieee, -EReal.coe_mul]

theorem cEps_pos : 0 < cEps := by
  rw [cEps_eq]
  exact EReal.coe_pos.2 (by positivity)

/-! ## Signs on the extended reals -/

/-- A square is never negative, also at the infinities. -/
theorem mul_self_nonneg (x : EReal) : 0 ≤ x * x := by
  induction x using EReal.rec with
  | bot => rw [EReal.bot_mul_bot]; exact le_top
  | coe r => rw [← EReal.coe_mul]; exact EReal.coe_nonneg.2 (_root_.mul_self_nonneg r)
  | top => rw [EReal.top_mul_top]; exact le_top

/-- The square root of a nonnegative extended real is nonnegative. -/
theorem sqrt_nonneg {x : EReal} (hx : 0 ≤ x) : 0 ≤ Ideal.sqrt x := by
  induction x using EReal.rec with
  | bot => exact absurd hx (by simp)
  | coe r =>
    have hr : 0 ≤ r := EReal.coe_nonneg.1 hx
    show 0 ≤ (if r < 0 then (⊥ : EReal) else (Real.sqrt r : EReal))
    rw [if_neg (not_lt.2 hr)]
    exact EReal.coe_nonneg.2 (Real.sqrt_nonneg r)
  | top => exact le_top

/-- Off a zero divisor a factor moves across the quotient: `a · (r / n) = (a / n) · r`. -/
theorem mul_div_eq_div_mul (a r n : EReal) (h : n ≠ 0) : a * Ideal.div r n = Ideal.div a n * r := by
  unfold Ideal.div
  rw [if_neg h, if_neg h]
  exact (mul_assoc a r n⁻¹).symm.trans (mul_right_comm a r n⁻¹)

/-! ## The function -/

section
variable (k v : Fin 1024 → Fin 128 → EReal) (p : Fin 1024 → Fin 3 → EReal)

/-- The scaled inner product of row `n` of `k` with row `m` of `v`. -/
def rel (n m : Fin 1024) : EReal := (∑ e : Fin 128, k n e * v m e) * cScale

/-- The squared displacement of points `n` and `m` along coordinate `d`. -/
def dsq (n m : Fin 1024) (d : Fin 3) : EReal := (p n d - p m d) * (p n d - p m d)

/-- The distance of points `n` and `m`, plus ε; the squares added one coordinate after the other from zero. -/
def dist (n m : Fin 1024) : EReal := Ideal.sqrt (((0 + dsq p n m 0) + dsq p n m 1) + dsq p n m 2) + cEps

/-- Coordinate `d` of the result at point `n`: the displacements to every other point, each weighted by
    `rel / dist`, summed, squashed and scaled. -/
def core (n : Fin 1024) (d : Fin 3) : EReal :=
  cAct * Ideal.tanh (∑ m : Fin 1024, (p n d - p m d) * Ideal.div (rel k v n m) (dist p n m))

/-- The same distance with the three squares summed at once. -/
def distRef (n m : Fin 1024) : EReal := Ideal.sqrt (0 + ∑ d : Fin 3, dsq p n m d) + cEps

/-- The same result with the displacement divided by the distance first and weighted by `rel` afterwards. -/
def coreRef (n : Fin 1024) (d : Fin 3) : EReal :=
  cAct * Ideal.tanh (0 + ∑ m : Fin 1024, Ideal.div (p n d - p m d) (distRef p n m) * rel k v n m)

theorem distRef_eq (n m : Fin 1024) : distRef p n m = dist p n m := by
  unfold distRef dist
  rw [Fin.sum_univ_three]
  simp only [zero_add]

/-- The distance plus ε is positive whatever the coordinates are. -/
theorem dist_pos (n m : Fin 1024) : 0 < dist p n m := by
  unfold dist
  refine lt_of_lt_of_le cEps_pos (le_add_of_nonneg_left (sqrt_nonneg ?_))
  unfold dsq
  exact add_nonneg (add_nonneg (add_nonneg le_rfl (mul_self_nonneg _)) (mul_self_nonneg _)) (mul_self_nonneg _)

/-- The two arrangements are one function. -/
theorem coreRef_eq (n : Fin 1024) (d : Fin 3) : coreRef k v p n d = core k v p n d := by
  unfold coreRef core
  rw [zero_add]
  refine congrArg (fun s => cAct * Ideal.tanh s) (Finset.sum_congr rfl fun m _ => ?_)
  rw [distRef_eq]
  exact (mul_div_eq_div_mul _ _ _ (ne_of_gt (dist_pos p n m))).symm

end

/-! ## The whole-array function

The arrays: `kv` of shape [16, 1024, 259], whose columns 0–127 are the rows `k` and columns 128–255 the rows `v` (the last
three columns are not read), and `pos` of shape [16, 1024, 3]. Entry (b, n, d) of the result is `core` of batch entry `b`'s rows. -/

abbrev KV : Type := (⟨3, ![16, 1024, 259]⟩ : Shape).Idx → EReal
abbrev Pos : Type := (⟨3, ![16, 1024, 3]⟩ : Shape).Idx → EReal

open Idealize.ShloMosaic.ValueIdx in
/-- Row `n` of `k` in batch entry `b`: columns 0–127 of `kv`. -/
def kRow (kv : KV) (b : Fin 16) (n : Fin 1024) (e : Fin 128) : EReal :=
  kv (ix3 b n (⟨e.val, by have := e.isLt; omega⟩ : Fin 259))

open Idealize.ShloMosaic.ValueIdx in
/-- Row `m` of `v` in batch entry `b`: columns 128–255 of `kv`. -/
def vRow (kv : KV) (b : Fin 16) (m : Fin 1024) (e : Fin 128) : EReal :=
  kv (ix3 b m (⟨128 + e.val, by have := e.isLt; omega⟩ : Fin 259))

open Idealize.ShloMosaic.ValueIdx in
/-- Point `n` of batch entry `b`. -/
def pRow (pos : Pos) (b : Fin 16) (n : Fin 1024) (d : Fin 3) : EReal := pos (ix3 b n d)

/-- The result array as one function of the two argument arrays. -/
def G (kv : KV) (pos : Pos) : Pos := fun i =>
  core (kRow kv ⟨(i 0).val, (i 0).isLt⟩) (vRow kv ⟨(i 0).val, (i 0).isLt⟩) (pRow pos ⟨(i 0).val, (i 0).isLt⟩)
    ⟨(i 1).val, (i 1).isLt⟩ ⟨(i 2).val, (i 2).isLt⟩

end Cert.Pairwise

end
-- ==== Proof.RefSide.lean ====
/-
  The reference program's result, read one operation at a time, is the whole-array function `G`.

  The reference forms every displacement `pos[b,n,d] − pos[b,m,d]` as one array of shape [16, 1024, 1024, 3], takes its
  norm over the last axis (a sum of three squares from zero, then a square root), adds ε, divides the displacements
  by that, multiplies by the scaled inner products `⟨k[b,n], v[b,m]⟩ · s`, sums over `m` from zero, and applies
  tanh and the final scale: the arrangement `coreRef`, which is `core`.
-/
import proofs.«113989_j12738873000286_1_alg».proof.Proof.Gen.ReferenceIdeal.Read
import proofs.«113989_j12738873000286_1_alg».proof.Proof.Spec

noncomputable section

open scoped BigOperators

namespace Cert.Pairwise.Ref

open Cert.ReferenceIdeal Cert.ReferenceIdeal.Read Idealize.ShloMosaic Idealize.ShloMosaic.ValueIdx Cert.Pairwise

variable (x0 : (⟨S16x1024x259, .f32⟩ : BufTy).Contents (Elt Ideal)) (x1 : (⟨S16x1024x3, .f32⟩ : BufTy).Contents (Elt Ideal))

/-- Entry (b, n, m, d) of the displacement array is `pos[b,n,d] − pos[b,m,d]`. -/
theorem disp_apply (I : S16x1024x1024x3.Idx) :
    val_main_v9 (F := Ideal) x1 I
      = pRow x1 ⟨(I 0).val, (I 0).isLt⟩ ⟨(I 1).val, (I 1).isLt⟩ ⟨(I 3).val, (I 3).isLt⟩
        - pRow x1 ⟨(I 0).val, (I 0).isLt⟩ ⟨(I 2).val, (I 2).isLt⟩ ⟨(I 3).val, (I 3).isLt⟩ := by
  rw [val_main_v9_apply, val_main_v7_apply, val_main_v5_apply, val_main_v8_apply, val_main_v6_apply]
  have e1 : idx_main_v5 (idx_main_v7 I) = ix3 (⟨(I 0).val, (I 0).isLt⟩ : Fin 16) (⟨(I 1).val, (I 1).isLt⟩ : Fin 1024) (⟨(I 3).val, (I 3).isLt⟩ : Fin 3) :=
    funext fun a => Fin.ext (by match a with | ⟨0, _⟩ => rfl | ⟨1, _⟩ => rfl | ⟨2, _⟩ => rfl)
  have e2 : idx_main_v6 (idx_main_v8 I) = ix3 (⟨(I 0).val, (I 0).isLt⟩ : Fin 16) (⟨(I 2).val, (I 2).isLt⟩ : Fin 1024) (⟨(I 3).val, (I 3).isLt⟩ : Fin 3) :=
    funext fun a => Fin.ext (by match a with | ⟨0, _⟩ => rfl | ⟨1, _⟩ => rfl | ⟨2, _⟩ => rfl)
  rw [e1, e2]
  rfl

/-- Entry (b, n, m) of the norm-plus-ε array is `distRef` of batch entry `b`'s points `n` and `m`. -/
theorem norm_apply (J : S16x1024x1024.Idx) :
    val_main_v12 (F := Ideal) x1 J
      = distRef (pRow x1 ⟨(J 0).val, (J 0).isLt⟩) ⟨(J 1).val, (J 1).isLt⟩ ⟨(J 2).val, (J 2).isLt⟩ := by
  rw [val_main_v12_apply, val_main_v10_apply, val_main_call0_v1_apply, val_main_v11_apply, val_main_cst_0_apply, val_main_call0_cst_apply]
  simp only [val_main_call0_v0_apply, disp_apply]
  unfold distRef dsq
  show Ideal.sqrt (Ideal.ofBits .f32 0x00000000#32 + _) + Ideal.ofBits .f32 0x322BCC77#32 = _
  rw [Ideal.ofBits_zero_f32]
  rfl

/-- Entry (b, n, m) of the scaled inner-product array is `rel` of batch entry `b`'s rows. -/
theorem rel_apply (J : S16x1024x1024.Idx) :
    val_main_v4 (F := Ideal) x0 J
      = rel (kRow x0 ⟨(J 0).val, (J 0).isLt⟩) (vRow x0 ⟨(J 0).val, (J 0).isLt⟩) ⟨(J 1).val, (J 1).isLt⟩ ⟨(J 2).val, (J 2).isLt⟩ := by
  rw [val_main_v4_apply, val_main_v2_apply, val_main_v3_apply, val_main_cst_apply]
  simp only [val_main_v0_apply, val_main_v1_apply]
  unfold rel kRow vRow
  show (∑ k : Fin 128, x0 (idx_main_v0 (lidx_main_v2 J k)) * x0 (idx_main_v1 (ridx_main_v2 J k))) * Ideal.ofBits .f32 0x3DB504F3#32 = _
  refine congrArg (· * cScale) (Finset.sum_congr rfl fun e _ => ?_)
  have e1 : idx_main_v0 (lidx_main_v2 J e) = ix3 (⟨(J 0).val, (J 0).isLt⟩ : Fin 16) (⟨(J 1).val, (J 1).isLt⟩ : Fin 1024) (⟨e.val, by have := e.isLt; omega⟩ : Fin 259) :=
    funext fun a => Fin.ext (by match a with | ⟨0, _⟩ => rfl | ⟨1, _⟩ => rfl | ⟨2, _⟩ => rfl)
  have e2 : idx_main_v1 (ridx_main_v2 J e) = ix3 (⟨(J 0).val, (J 0).isLt⟩ : Fin 16) (⟨(J 2).val, (J 2).isLt⟩ : Fin 1024) (⟨128 + e.val, by have := e.isLt; omega⟩ : Fin 259) :=
    funext fun a => Fin.ext (by match a with | ⟨0, _⟩ => rfl | ⟨1, _⟩ => rfl | ⟨2, _⟩ => rfl)
  rw [e1, e2]

/-- The reference's result array is `G` of its two arguments. -/
theorem result_eq : val_main_v22 (F := Ideal) x0 x1 = G x0 x1 := by
  funext i
  rw [val_main_v22_apply, val_main_v21_apply, val_main_cst_2_apply, val_main_v20_apply, val_main_v19_apply, val_main_cst_1_apply]
  simp only [val_main_v18_apply, val_main_v15_apply, val_main_v17_apply, val_main_v16_apply, val_main_v14_apply, val_main_v13_apply,
    disp_apply, norm_apply, rel_apply]
  unfold G
  rw [← coreRef_eq]
  unfold coreRef
  show Ideal.ofBits .f32 0x3C23D70A#32 * Ideal.tanh (Ideal.ofBits .f32 0x00000000#32 + _) = _
  rw [Ideal.ofBits_zero_f32]
  rfl

end Cert.Pairwise.Ref

end
-- ==== Proof.KernelBlock.lean ====
/-
  What the kernel's body leaves in one output block, index by index.

  At one grid point the body holds a block `P1` of shape [1, 1024, 259] (the rows `k` in columns 0–127, the rows `v`
  in columns 128–255) and a block `P0` of shape [1, 1024, 3] (the points). It forms the 1024 × 1024 matrix of scaled
  inner products by one matrix product into a zero accumulator, the three matrices of displacements by broadcasting a
  column of `P0` along the rows and its transpose along the columns, the distance matrix from their squares, the
  weight matrix `rel / dist`, and for each coordinate the row sums of displacement × weight. So entry (0, n, d) of
  the block it stores is `core n d` of the block's rows.
-/
import proofs.«113989_j12738873000286_1_alg».proof.Proof.Gen.KernelIdeal.Value
import proofs.«113989_j12738873000286_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Pairwise.Block

open Cert.KernelIdeal Cert.KernelIdeal.Gen Idealize.ShloMosaic Idealize.ShloMosaic.ValueIdx Cert.Pairwise

/-! ## The block's rows -/

/-- Row `n` of `k` in the block: columns 0–127. -/
def kB (P1 : Vec Ideal S1x1024x259 .f32) (n : Fin 1024) (e : Fin 128) : EReal :=
  P1 (ix3 (0 : Fin 1) n (⟨e.val, by have := e.isLt; omega⟩ : Fin 259))
/-- Row `m` of `v` in the block: columns 128–255. -/
def vB (P1 : Vec Ideal S1x1024x259 .f32) (m : Fin 1024) (e : Fin 128) : EReal :=
  P1 (ix3 (0 : Fin 1) m (⟨128 + e.val, by have := e.isLt; omega⟩ : Fin 259))
/-- Point `n` of the block. -/
def pB (P0 : Vec Ideal S1x1024x3 .f32) (n : Fin 1024) (d : Fin 3) : EReal := P0 (ix3 (0 : Fin 1) n d)

/-! ## Layout steps read at an index -/

/-- Column `o` of the points, as a [1024, 1] matrix, at row `n`. -/
theorem col_apply (P0 : Vec Ideal S1x1024x3 .f32) (o : Nat) (hc : S1x1024x3.ShapeCasts S1024x3) (h : S1024x3.Slices ![0, o] S1024x1)
    (n : Fin 1024) (d : Fin 3) (hd : d.val = o) :
    extractStridedSlice S1024x1 ![0, o] (shapeCast S1024x3 P0 hc) h (ix2 n (0 : Fin 1)) = pB P0 n d := by
  rw [slice2_axis1_apply o _ h n (0 : Fin 1) d (by rw [hd]; rfl)]
  exact shapeCast_1ab_ab_apply P0 hc n d

/-- A [1024, 1] column broadcast along the rows reads, at (n, m), the column at `n`. -/
theorem bcol_apply (c : FVec Ideal S1024x1 .f32) (hb : S1024x1.Broadcasts S1024x1024) (n m : Fin 1024) :
    broadcastTo S1024x1024 c hb (ix2 n m) = c (ix2 n (0 : Fin 1)) := by
  refine broadcastTo_apply c hb (ix2 n m) (ix2 n (0 : Fin 1)) fun ax => ?_
  match ax with
  | ⟨0, _⟩ => show n.val = if (1024 : Nat) = 1 then 0 else n.val; rw [if_neg (by decide)]
  | ⟨1, _⟩ => show (0 : Nat) = if (1 : Nat) = 1 then 0 else m.val; rw [if_pos rfl]

/-- The column transposed and broadcast along the columns reads, at (n, m), the column at `m`. -/
theorem brow_apply (c : FVec Ideal S1024x1 .f32) (ht : S1024x1.Transposes [1, 0] S1x1024) (hb : S1x1024.Broadcasts S1024x1024) (n m : Fin 1024) :
    broadcastTo S1024x1024 (transpose S1x1024 [1, 0] c ht) hb (ix2 n m) = c (ix2 m (0 : Fin 1)) := by
  rw [broadcastTo_1b_ab_apply _ hb n m]
  exact transpose_ix2_apply c ht (0 : Fin 1) m

/-- The displacement matrix of one coordinate. -/
theorem disp_apply (c : FVec Ideal S1024x1 .f32) (hb : S1024x1.Broadcasts S1024x1024) (ht : S1024x1.Transposes [1, 0] S1x1024)
    (hb' : S1x1024.Broadcasts S1024x1024) (n m : Fin 1024) :
    subf (broadcastTo S1024x1024 c hb) (broadcastTo S1024x1024 (transpose S1x1024 [1, 0] c ht) hb') (ix2 n m)
      = c (ix2 n (0 : Fin 1)) - c (ix2 m (0 : Fin 1)) := by
  rw [subf_apply, bcol_apply, brow_apply]

/-- Columns `o .. o+127` of the block's kv rows, as a [1024, 128] matrix narrowed to bf16 (the identity on values), at (n, e). -/
theorem kvslice_apply (P1 : Vec Ideal S1x1024x259 .f32) (o : Nat) (hc : S1x1024x259.ShapeCasts S1024x259) (h : S1024x259.Slices ![0, o] S1024x128)
    (hlt : FTy.bits .bf16 < FTy.bits .f32) (n : Fin 1024) (e : Fin 128) (k : Fin 259) (hk : k.val = o + e.val) :
    (truncf .bf16 (extractStridedSlice S1024x128 ![0, o] (shapeCast S1024x259 P1 hc) h) hlt : FVec Ideal S1024x128 .bf16) (ix2 n e)
      = P1 (ix3 (0 : Fin 1) n k) := by
  rw [truncf_apply, slice2_axis1_apply o _ h n e k hk]
  exact shapeCast_1ab_ab_apply P1 hc n k

/-! ## The matrix product -/

theorem lhs0 (j : S1024x1024.Idx) (q : dot_S1024x128_S1024x128_S1024x1024_1_1_0_0_n_n.contr.Idx) : (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem rhs0 (j : S1024x1024.Idx) (q : dot_S1024x128_S1024x128_S1024x1024_1_1_0_0_n_n.contr.Idx) : (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl

/-- The product of a [1024, 128] matrix with the transpose of another into a zero accumulator: entry (n, m) is the inner
    product of row `n` of the first with row `m` of the second. -/
theorem inner_apply (A B : FVec Ideal S1024x128 .bf16) (n m : Fin 1024) :
    matmul dot_S1024x128_S1024x128_S1024x1024_1_1_0_0_n_n none A B (constant S1024x1024 .f32 0x00000000#32) (ix2 n m) = ∑ e : Fin 128, A (ix2 n e) * B (ix2 m e) := by
  simp only [matmul]
  rw [Ideal.matmul_constant_zero_apply, ← Equiv.sum_comp (contrEquiv1 dot_S1024x128_S1024x128_S1024x1024_1_1_0_0_n_n 128 rfl rfl).symm]
  refine Finset.sum_congr rfl fun e _ => ?_
  have hk := contrEquiv1_symm_val dot_S1024x128_S1024x128_S1024x1024_1_1_0_0_n_n 128 rfl rfl e
  have el : dot_S1024x128_S1024x128_S1024x1024_1_1_0_0_n_n.lhsIdx (ix2 n m) ((contrEquiv1 dot_S1024x128_S1024x128_S1024x1024_1_1_0_0_n_n 128 rfl rfl).symm e) = ix2 n e := funext fun a => Fin.ext (by
    match a with
    | ⟨0, _⟩ => exact lhs0 _ _
    | ⟨1, _⟩ => exact (dot_S1024x128_S1024x128_S1024x1024_1_1_0_0_n_n.lhsIdx_val_of_single rfl _ _).trans hk)
  have er : dot_S1024x128_S1024x128_S1024x1024_1_1_0_0_n_n.rhsIdx (ix2 n m) ((contrEquiv1 dot_S1024x128_S1024x128_S1024x1024_1_1_0_0_n_n 128 rfl rfl).symm e) = ix2 m e := funext fun a => Fin.ext (by
    match a with
    | ⟨0, _⟩ => exact rhs0 _ _
    | ⟨1, _⟩ => exact (dot_S1024x128_S1024x128_S1024x1024_1_1_0_0_n_n.rhsIdx_val_of_single rfl _ _).trans hk)
  rw [el, er]

/-! ## The weight matrix and the block -/

theorem sqrt_apply {s : Shape} {φ : FTy} (a : FVec Ideal s φ) (i : s.Idx) : sqrt a i = Ideal.sqrt (a i) := rfl
theorem tanh_apply {s : Shape} {φ : FTy} (a : FVec Ideal s φ) (i : s.Idx) : tanh a i = Ideal.tanh (a i) := rfl

/-- Entry (n, m) of the matrix of inner products of the block's `k` rows with its `v` rows. -/
theorem relmat_apply (P1 : Vec Ideal S1x1024x259 .f32) (n m : Fin 1024) :
    matmul (F := Ideal) dot_S1024x128_S1024x128_S1024x1024_1_1_0_0_n_n none
        (truncf .bf16 (extractStridedSlice S1024x128 ![0, 0] (shapeCast S1024x259 P1 shapeCasts_S1x1024x259_S1024x259) slices_S1024x259_o0_0_S1024x128) bitsLt_bf16_f32)
        (truncf .bf16 (extractStridedSlice S1024x128 ![0, 128] (shapeCast S1024x259 P1 shapeCasts_S1x1024x259_S1024x259) slices_S1024x259_o0_128_S1024x128) bitsLt_bf16_f32)
        (constant S1024x1024 .f32 0x00000000#32) (ix2 n m)
      = ∑ e : Fin 128, kB P1 n e * vB P1 m e := by
  rw [inner_apply]
  refine Finset.sum_congr rfl fun e _ => ?_
  rw [kvslice_apply P1 0 _ _ _ n e (⟨e.val, by have := e.isLt; omega⟩ : Fin 259) (Nat.zero_add _).symm,
    kvslice_apply P1 128 _ _ _ m e (⟨128 + e.val, by have := e.isLt; omega⟩ : Fin 259) rfl]
  rfl

/-- The displacement matrix of coordinate `d`, built from column `d` of the block's points: entry (n, m) is `p n d − p m d`. -/
theorem dispcol_apply (P0 : Vec Ideal S1x1024x3 .f32) (o : Nat) (h : S1024x3.Slices ![0, o] S1024x1) (n m : Fin 1024) (d : Fin 3) (hd : d.val = o) :
    subf (F := Ideal) (φ := .f32) (broadcastTo S1024x1024 (extractStridedSlice S1024x1 ![0, o] (shapeCast S1024x3 P0 shapeCasts_S1x1024x3_S1024x3) h) broadcasts_S1024x1_S1024x1024)
        (broadcastTo S1024x1024 (transpose S1x1024 [1, 0] (extractStridedSlice S1024x1 ![0, o] (shapeCast S1024x3 P0 shapeCasts_S1x1024x3_S1024x3) h) transposes_S1024x1_p1_0_S1x1024) broadcasts_S1x1024_S1024x1024)
        (ix2 n m)
      = pB P0 n d - pB P0 m d :=
  (disp_apply _ broadcasts_S1024x1_S1024x1024 transposes_S1024x1_p1_0_S1x1024 broadcasts_S1x1024_S1024x1024 n m).trans
    (by rw [col_apply P0 o shapeCasts_S1x1024x3_S1024x3 h n d hd, col_apply P0 o shapeCasts_S1x1024x3_S1024x3 h m d hd])

/-- Entry (n, m) of the weight matrix: the scaled inner product of rows `n`, `m` over the distance of points `n`, `m`. -/
theorem weight_apply (P1 : Vec Ideal S1x1024x259 .f32) (P0 : Vec Ideal S1x1024x3 .f32) (n m : Fin 1024) :
    k0_pay11 (F := Ideal) P1 P0 (ix2 n m) = Ideal.div (rel (kB P1) (vB P1) n m) (dist (pB P0) n m) := by
  unfold k0_pay11 k0_pay8 k0_pay9 k0_pay10 k0_pay5 k0_pay6 k0_pay7 k0_pay4
  dsimp only
  simp only [divf_apply, mulf_apply, addf_apply, sqrt_apply, broadcast_apply, relmat_apply]
  rw [dispcol_apply P0 0 slices_S1024x3_o0_0_S1024x1 n m 0 rfl, dispcol_apply P0 1 slices_S1024x3_o0_1_S1024x1 n m 1 rfl,
    dispcol_apply P0 2 slices_S1024x3_o0_2_S1024x1 n m 2 rfl]
  unfold rel dist dsq
  show Ideal.div (_ * Ideal.ofBits .f32 0x3DB504F3#32) (Ideal.sqrt (((Ideal.ofBits .f32 0x00000000#32 + _) + _) + _) + Ideal.ofBits .f32 0x322BCC77#32) = _
  rw [Ideal.ofBits_zero_f32]

/-- A sum along the rows of a 1024 × 1024 matrix, from zero: entry `n` is the sum of row `n`. -/
theorem rowsum_apply (X : FVec Ideal S1024x1024 .f32) (n : Fin 1024) :
    multiReduction (F := Ideal) .add [1] S1024 X 0x00000000#32 reduces_S1024x1024_S1024 (.inl rfl) rfl (ix1 n) = ∑ m : Fin 1024, X (ix2 n m) := by
  refine (Ideal.multiReduction_add_single X 0x00000000#32 reduces_S1024x1024_S1024 (.inl rfl) rfl (ix1 n)).trans ?_
  refine Finset.sum_congr rfl fun m _ => congrArg X (funext fun a => Fin.ext ?_)
  match a with
  | ⟨0, _⟩ => rfl
  | ⟨1, _⟩ => rfl

/-- The row sums of displacement × weight for the coordinate read from column `o`. -/
theorem rowsums_col (P0 : Vec Ideal S1x1024x3 .f32) (P1 : Vec Ideal S1x1024x259 .f32) (o : Nat) (h : S1024x3.Slices ![0, o] S1024x1)
    (d : Fin 3) (hd : d.val = o) (n : Fin 1024) :
    multiReduction (F := Ideal) .add [1] S1024
        (mulf (subf (F := Ideal) (φ := .f32) (broadcastTo S1024x1024 (extractStridedSlice S1024x1 ![0, o] (shapeCast S1024x3 P0 shapeCasts_S1x1024x3_S1024x3) h) broadcasts_S1024x1_S1024x1024)
            (broadcastTo S1024x1024 (transpose S1x1024 [1, 0] (extractStridedSlice S1024x1 ![0, o] (shapeCast S1024x3 P0 shapeCasts_S1x1024x3_S1024x3) h) transposes_S1024x1_p1_0_S1x1024) broadcasts_S1x1024_S1024x1024))
          (k0_pay11 (F := Ideal) P1 P0))
        0x00000000#32 reduces_S1024x1024_S1024 (.inl rfl) rfl (ix1 n)
      = ∑ m : Fin 1024, (pB P0 n d - pB P0 m d) * Ideal.div (rel (kB P1) (vB P1) n m) (dist (pB P0) n m) := by
  refine (rowsum_apply _ n).trans (Finset.sum_congr rfl fun m _ => ?_)
  rw [mulf_apply, dispcol_apply P0 o h n m d hd, weight_apply]

/-- The three coordinates' row sums, selected by the coordinate. -/
theorem fam_apply (P0 : Vec Ideal S1x1024x3 .f32) (P1 : Vec Ideal S1x1024x259 .f32) (j : Fin 3) (n : Fin 1024) :
    Cert.KernelIdeal.Value.Fam2_0 (F := Ideal) P0 P1 j (ix1 n)
      = ∑ m : Fin 1024, (pB P0 n j - pB P0 m j) * Ideal.div (rel (kB P1) (vB P1) n m) (dist (pB P0) n m) := by
  match j with
  | ⟨0, hj⟩ => exact rowsums_col P0 P1 0 slices_S1024x3_o0_0_S1024x1 ⟨0, hj⟩ rfl n
  | ⟨1, hj⟩ => exact rowsums_col P0 P1 1 slices_S1024x3_o0_1_S1024x1 ⟨1, hj⟩ rfl n
  | ⟨2, hj⟩ => exact rowsums_col P0 P1 2 slices_S1024x3_o0_2_S1024x1 ⟨2, hj⟩ rfl n

/-- THE BLOCK: entry (0, n, d) of what the body stores is `core n d` of the block's rows. -/
theorem block_apply (P0 : Vec Ideal S1x1024x3 .f32) (P1 : Vec Ideal S1x1024x259 .f32) (y : S1x1024x3.Idx) :
    Cert.KernelIdeal.Value.E2 (F := Ideal) P0 P1 y
      = core (kB P1) (vB P1) (pB P0) ⟨(y 1).val, (y 1).isLt⟩ ⟨(y 2).val, (y 2).isLt⟩ := by
  have hix : Cert.KernelIdeal.Value.ix2_0 y = ix1 (⟨(y 1).val, (y 1).isLt⟩ : Fin 1024) :=
    funext fun a => Fin.ext (by match a with | ⟨0, _⟩ => rfl)
  show Ideal.ofBits .f32 0x3C23D70A#32 * Ideal.tanh ((Cert.KernelIdeal.Value.Fam2_0 P0 P1 (Cert.KernelIdeal.Value.sel2 y)) (Cert.KernelIdeal.Value.ix2_0 y)) = _
  rw [hix, fam_apply]
  rfl

end Cert.Pairwise.Block

end
-- ==== Proof.KernelArray.lean ====
/-
  From the blocks to the whole result array.

  The grid has 16 points. At point `t` each of the three windows' blocks is batch entry `t` of its array — block index
  (t, 0, 0) with block sizes [1, 1024, 259] and [1, 1024, 3] — so the block the body stores at point `t`, entry (0, n, d),
  is `core` of batch entry `t`'s rows: block `t` of the whole-array function `G`. The 16 blocks tile the array (index
  (b, n, d) lies in the block of point `b`), so after the run the array is `G` of the two arguments.
-/
import proofs.«113989_j12738873000286_1_alg».proof.Proof.Gen.KernelIdeal.Value
import proofs.«113989_j12738873000286_1_alg».proof.Proof.KernelBlock

noncomputable section

namespace Cert.Pairwise.Arr

open Cert.KernelIdeal Cert.KernelIdeal.Gen Idealize.ShloMosaic Idealize.ShloMosaic.TcCoe Idealize.SL.Sem Idealize.ShloMosaic.ValueIdx Cert.Pairwise
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-- `G` at an index given by its coordinates. -/
theorem G_ix3 (kv : KV) (pos : Pos) (b : Fin 16) (n : Fin 1024) (d : Fin 3) :
    G kv pos (ix3 b n d) = core (kRow kv b) (vRow kv b) (pRow pos b) n d := rfl

/-- The printed index maps over the grid: every window's block index at point `t` is (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A grid point as a batch index. -/
abbrev bat (t : Fin cfg0.N) : Fin 16 := ⟨t.val, lt_of_lt_of_eq t.isLt N_0⟩

/-- The kv window's block at point `t` is batch entry `t` of the kv array. -/
theorem kv_block (c : Dev nD) (t : Fin cfg0.N) (n : Fin 1024) (j : Fin 259) :
    iblk m c 0 t (ix3 (0 : Fin 1) n j) = V m c main_arg0 (ix3 (bat t) n j) := by
  obtain ⟨a0, a1, a2, -⟩ := index_facts t
  show V m c main_arg0 (((cfg0.win 0).blk t).view.emb (ix3 (0 : Fin 1) n j)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 259 + 1 * j.val = j.val; omega

/-- The points window's block at point `t` is batch entry `t` of the points array. -/
theorem pos_block (c : Dev nD) (t : Fin cfg0.N) (n : Fin 1024) (d : Fin 3) :
    iblk m c 1 t (ix3 (0 : Fin 1) n d) = V m c main_arg1 (ix3 (bat t) n d) := by
  obtain ⟨-, -, -, b0, b1, b2, -⟩ := index_facts t
  show V m c main_arg1 (((cfg0.win 1).blk t).view.emb (ix3 (0 : Fin 1) n d)) = _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 3 + 1 * d.val = d.val; omega

/-- Where entry `y` of the output block at point `t` sits in the result array. -/
theorem out_emb (t : Fin cfg0.N) (y : S1x1024x3.Idx) :
    ((cfg0.win 2).blk t).view.emb y = ix3 (bat t) (⟨(y 1).val, (y 1).isLt⟩ : Fin 1024) (⟨(y 2).val, (y 2).isLt⟩ : Fin 3) := by
  obtain ⟨-, -, -, -, -, -, c0, c1, c2⟩ := index_facts t
  have hy0 : (y 0).val < 1 := (y 0).isLt
  funext a; apply Fin.ext
  match a with
  | ⟨0, _⟩ => show win0_2.index t (0 : Fin 3) * 1 + 1 * (y 0).val = t.val; omega
  | ⟨1, _⟩ => show win0_2.index t (1 : Fin 3) * 1024 + 1 * (y 1).val = (y 1).val; omega
  | ⟨2, _⟩ => show win0_2.index t (2 : Fin 3) * 3 + 1 * (y 2).val = (y 2).val; omega

/-- WHAT POINT `t` WRITES BACK is block `t` of `G` of the argument arrays. -/
theorem flushed_eq (c : Dev nD) (t : Fin cfg0.N) :
    (dats m 0 c).flushed 2 t = ((cfg0.win 2).blk t).view.read (Elt Ideal) (G (V m c main_arg0) (V m c main_arg1)) := by
  rw [Cert.KernelIdeal.Value.flushed2]
  unfold out0_2
  simp only [View.ld_unit_zero (S := S1x1024x3) zero3, View.ld_unit_zero (S := S1x1024x259) zero3]
  funext y
  refine (Cert.KernelIdeal.Value.canon2_eq (F := Ideal) (iblk m c 1 t) (iblk m c 0 t) y).trans ?_
  refine (Block.block_apply (iblk m c 1 t) (iblk m c 0 t) y).trans ?_
  refine Eq.trans ?_ (congrArg (G (V m c main_arg0) (V m c main_arg1)) (out_emb t y)).symm
  rw [G_ix3]
  have hk : Block.kB (iblk m c 0 t) = kRow (V m c main_arg0) (bat t) := funext fun n => funext fun e => kv_block m c t n _
  have hv : Block.vB (iblk m c 0 t) = vRow (V m c main_arg0) (bat t) := funext fun n => funext fun e => kv_block m c t n _
  have hp : Block.pB (iblk m c 1 t) = pRow (V m c main_arg1) (bat t) := funext fun n => funext fun d => pos_block m c t n d
  rw [hk, hv, hp]

/-- An index of the result array is in point `t`'s block iff each coordinate is in the block's range on its axis. -/
theorem mem_blk (t : Fin cfg0.N) (i : S16x1024x3.Idx) :
    i ∈ ((cfg0.win 2).blk t).view.set ↔ ∀ a : Fin 3, win0_2.index t a * S1x1024x3.size a ≤ (i a).val ∧ (i a).val < win0_2.index t a * S1x1024x3.size a + S1x1024x3.size a := by
  show i ∈ ((View.whole main_v0).slice (win0_2.rect t)).set ↔ _
  rw [View.set_slice_whole, Rect.mem_set_unit]
  exact Iff.rfl

/-- The 16 blocks cover the result array: index (b, n, d) lies in the block of point `b`. -/
theorem cover (i : S16x1024x3.Idx) : ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 3 := (i 2).isLt
  obtain ⟨t, ht⟩ : ∃ t : Fin cfg0.N, t.val = (i 0).val := ⟨⟨(i 0).val, lt_of_lt_of_eq hi0 N_0.symm⟩, rfl⟩
  obtain ⟨-, -, -, -, -, -, c0, c1, c2⟩ := index_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 3 ≤ (i 2).val ∧ (i 2).val < win0_2.index t (2 : Fin 3) * 3 + 3; omega

/-- THE RESULT ARRAY after the run is `G` of the two argument arrays as launched. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run: every weakly fair execution terminates with the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Pairwise.Arr

end
-- ==== Proof.lean ====
/-
  Pairwise-displacement aggregation: the kernel and its reference compute one function on the extended reals.

  Inputs: `kv` of shape [16, 1024, 259] (per batch entry and point, a row `k` in columns 0–127 and a row `v` in columns
  128–255) and `pos` of shape [16, 1024, 3] (a point in space). For batch entry `b`, point `n` and coordinate `d` the
  result is
      a · tanh ( ∑ₘ (pos[b,n,d] − pos[b,m,d]) · w[b,n,m] ),     w[b,n,m] = (⟨k[b,n], v[b,m]⟩ · s) / (‖pos[b,n] − pos[b,m]‖ + ε),
  with the same three single-precision constants `s`, `ε`, `a` in both programs.

  The kernel handles one batch entry per grid point: one matrix product gives the inner products, the squared
  displacements are added coordinate by coordinate, the weight matrix `w` is formed once, and each coordinate's row sums of
  displacement × weight are squashed, scaled and stored as one column of the output block (Proof/KernelBlock.lean); the 16
  blocks tile the result (Proof/KernelArray.lean). The reference forms the four-dimensional array of displacements, divides it
  by the norm plus ε FIRST and multiplies by the inner products afterwards, then sums over `m` (Proof/RefSide.lean).

  The two arrangements differ only by moving a factor across a quotient, `x · (r / n) = (x / n) · r`, and by the grouping
  of a sum of three squares. On the extended reals the first needs `n ≠ 0` and nothing else — multiplication there is
  commutative and associative — and `n = sqrt(sum of squares) + ε` is positive for EVERY input, finite or not, because a
  square is never negative there (Proof/Spec.lean). So the precondition is not used for the values; it is only what the
  claims are stated under. The idealization rewrote nothing, so the kernel and its idealized form are one text.
-/
import proofs.«113989_j12738873000286_1_alg».proof.Defs
import proofs.«113989_j12738873000286_1_alg».proof.Proof.Gen.Kernel
import proofs.«113989_j12738873000286_1_alg».proof.Proof.Gen.Kernel.Skeleton
import proofs.«113989_j12738873000286_1_alg».proof.Proof.Gen.Kernel.Launch
import proofs.«113989_j12738873000286_1_alg».proof.Proof.Gen.Kernel.Points
import proofs.«113989_j12738873000286_1_alg».proof.Proof.Gen.Kernel.Frame
import proofs.«113989_j12738873000286_1_alg».proof.Proof.Gen.KernelIdeal
import proofs.«113989_j12738873000286_1_alg».proof.Proof.Gen.KernelIdeal.Skeleton
import proofs.«113989_j12738873000286_1_alg».proof.Proof.Gen.KernelIdeal.Launch
import proofs.«113989_j12738873000286_1_alg».proof.Proof.Gen.KernelIdeal.Points
import proofs.«113989_j12738873000286_1_alg».proof.Proof.Gen.KernelIdeal.Frame
import proofs.«113989_j12738873000286_1_alg».proof.Proof.Gen.ReferenceIdeal
import proofs.«113989_j12738873000286_1_alg».proof.Proof.Gen.Pre_finite_inputs
import proofs.«113989_j12738873000286_1_alg».proof.Proof.Gen.KernelIdeal.Value
import proofs.«113989_j12738873000286_1_alg».proof.Proof.Gen.ReferenceIdeal.Run
import proofs.«113989_j12738873000286_1_alg».proof.Proof.Gen.ReferenceIdeal.Read
import proofs.«113989_j12738873000286_1_alg».proof.Proof.Spec
import proofs.«113989_j12738873000286_1_alg».proof.Proof.RefSide
import proofs.«113989_j12738873000286_1_alg».proof.Proof.KernelBlock
import proofs.«113989_j12738873000286_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of array operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories agreeing on the two arguments both programs end with the result array at `G` of the arguments: the
    kernel's blocks tile `G`, and the reference's composed operations read, index by index, as `G`. -/
theorem algebraic : Cert.algebraic_KernelIdeal_ReferenceIdeal := by
  intro m ρ m' ρ' _ hagree
  refine ⟨fun c => Cert.Pairwise.G (m ((c : Thread Cert.KernelIdeal.nD Cert.KernelIdeal.τ).loc Cert.KernelIdeal.main_arg0))
      (m ((c : Thread Cert.KernelIdeal.nD Cert.KernelIdeal.τ).loc Cert.KernelIdeal.main_arg1)), Cert.Pairwise.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Pairwise.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
